-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S2048x1024 : Shape := ⟨2, ![2048, 1024]⟩
abbrev S1024 : Shape := ⟨1, ![1024]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x512x1024 .f32) (main_arg1 : FVec F S8x512x1024 .f32) (main_arg2 : FVec F S8x512x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x512x1024 .f32 := Host.absf main_arg2
  let main_cst_2 : FVec F S_ .f32 := constant S_ .f32 0x7F800000#32
  let main_v10 : FVec F S8x512x1024 .f32 := broadcastInDim S8x512x1024 ![] bcast_S_S8x512x1024 main_cst_2
  let main_v11 : IVec S8x512x1024 1 := cmpf .olt main_v9 main_v10
  let main_c_3 : IVec S_ 1 := constantI S_ 1 1#1
  let main_v12 : IVec S_ 1 := (fun x v => Host.reduce IntOp.andi x v reducesTo_S8x512x1024_S_d0_1_2 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8x512x1024 : Shape := ⟨3, ![8, 512, 1024]⟩
abbrev S2048x1024 : Shape := ⟨2, ![2048, 1024]⟩
abbrev S1024 : Shape := ⟨1, ![1024]⟩
abbrev S4096x1024 : Shape := ⟨2, ![4096, 1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 22
  | .vmem => 12
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S2048x4096, .f32⟩
  | .hbm, ⟨15, _⟩ => ⟨S2048x4096, .bf16⟩
  | .hbm, ⟨16, _⟩ => ⟨S4096, .f32⟩
  | .hbm, ⟨17, _⟩ => ⟨S1x4096, .f32⟩
  | .hbm, ⟨18, _⟩ => ⟨S4096x1024, .f32⟩
  | .hbm, ⟨19, _⟩ => ⟨S4096x1024, .f32⟩
  | .hbm, ⟨20, _⟩ => ⟨S8x512x1024, .f32⟩
  | .hbm, ⟨21, _⟩ => ⟨S8x512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x512x1024_S4096x1024 : S8x512x1024.ShapeCasts S4096x1024
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  shapeCasts_S4096x1024_S8x512x1024 : S4096x1024.ShapeCasts S8x512x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S2048x1024 : Shape := ⟨2, ![2048, 1024]⟩
abbrev S1024 : Shape := ⟨1, ![1024]⟩
abbrev S8x512x2048 : Shape := ⟨3, ![8, 512, 2048]⟩
abbrev S2048x4096 : Shape := ⟨2, ![2048, 4096]⟩
abbrev S4096 : Shape := ⟨1, ![4096]⟩
abbrev S8x512x4096 : Shape := ⟨3, ![8, 512, 4096]⟩
abbrev S1x1x4096 : Shape := ⟨3, ![1, 1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8x512x2048, .f32⟩
  | .hbm, ⟨12, _⟩ => ⟨S2048x4096, .f32⟩
  | .hbm, ⟨13, _⟩ => ⟨S4096, .f32⟩
  | .hbm, ⟨14, _⟩ => ⟨S8x512x4096, .f32⟩
  | .hbm, ⟨15, _⟩ => ⟨S1x1x4096, .f32⟩
  | .hbm, ⟨16, _⟩ => ⟨S8x512x4096, .f32⟩
  | .hbm, ⟨17, _⟩ => ⟨S8x512x4096, .f32⟩
  | .hbm, ⟨18, _⟩ => ⟨S8x512x1024, .f32⟩
  | .hbm, ⟨19, _⟩ => ⟨S8x512x1024, .f32⟩
  | .hbm, ⟨20, _⟩ => ⟨S8x512x1024, .f32⟩
  | .hbm, ⟨21, _⟩ => ⟨S8x512x1024, .f32⟩
  | .hbm, ⟨22, _⟩ => ⟨S8x512x1024, .f32⟩
  | .hbm, ⟨23, _⟩ => ⟨S8x512x1024, .f32⟩
  | .hbm, ⟨24, _⟩ => ⟨S_, .f32⟩
  | .hbm, ⟨25, _⟩ => ⟨S8x512x1024, .f32⟩
  | .hbm, ⟨26, _⟩ => ⟨S8x512x1024, .f32⟩
  | .hbm, ⟨27, _⟩ => ⟨S_, .f32⟩
  | .hbm, ⟨28, _⟩ => ⟨S8x512x1024, .f32⟩
  | .hbm, ⟨29, _⟩ => ⟨S8x512x1024, .f32⟩
  | .hbm, ⟨30, _⟩ => ⟨S8x512x1024, .f32⟩
  | .hbm, ⟨31, _⟩ => ⟨S8x512x1024, .f32⟩
  | .hbm, ⟨32, _⟩ => ⟨S_, .f32⟩
  | .hbm, ⟨33, _⟩ => ⟨S8x512x1024, .f32⟩
  | .hbm, ⟨34, _⟩ => ⟨S8x512x1024, .f32⟩
  | .hbm, ⟨35, _⟩ => ⟨S_, .f32⟩
  | .hbm, ⟨36, _⟩ => ⟨S8x512x1024, .f32⟩
  | .hbm, ⟨37, _⟩ => ⟨S8x512x1024, .f32⟩
  | .hbm, ⟨38, _⟩ => ⟨S8x512x1024, .f32⟩
  | .hbm, ⟨39, _⟩ => ⟨S8x512x1024, .f32⟩
  | .hbm, ⟨40, _⟩ => ⟨S8x512x1024, .f32⟩
  | .hbm, ⟨41, _⟩ => ⟨S_, .f32⟩
  | .hbm, ⟨42, _⟩ => ⟨S8x512x1024, .f32⟩
  | .hbm, ⟨43, _⟩ => ⟨S8x512x1024, .f32⟩
  | .hbm, ⟨44, _⟩ => ⟨S_, .f32⟩
  | .hbm, ⟨45, _⟩ => ⟨S8x512x1024, .f32⟩
  | .hbm, ⟨46, _⟩ => ⟨S8x512x1024, .f32⟩
  | .hbm, ⟨47, _⟩ => ⟨S8x512x1024, .f32⟩
  | .hbm, ⟨48, _⟩ => ⟨S8x512x1024, .f32⟩
  | .hbm, ⟨49, _⟩ => ⟨S8x512x1024, .f32⟩
  | .hbm, ⟨50, _⟩ => ⟨S8x512x1024, .f32⟩
  | .hbm, ⟨51, _⟩ => ⟨S8x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8x512x1024_S8x512x1024_S8x512x2048_d2 : Shape.Concatenates [S8x512x1024, S8x512x1024] S8x512x2048 2
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S8x512x4096_0_1_2 : S1x1x4096.BroadcastsInDim S8x512x4096 (![0, 1, 2] : Fin 3 → Fin S8x512x4096.rank)
  slices_S8x512x4096_S8x512x1024_0_0_0 : S8x512x4096.Slices ![0, 0, 0] S8x512x1024
  slices_S8x512x4096_S8x512x1024_0_0_1024 : S8x512x4096.Slices ![0, 0, 1024] S8x512x1024
  slices_S8x512x4096_S8x512x1024_0_0_2048 : S8x512x4096.Slices ![0, 0, 2048] S8x512x1024
  slices_S8x512x4096_S8x512x1024_0_0_3072 : S8x512x4096.Slices ![0, 0, 3072] S8x512x1024
  bcast_S_S8x512x1024 : S_.BroadcastsInDim S8x512x1024 (![] : Fin 0 → Fin S8x512x1024.rank)
  dot_S8x512x2048_S2048x4096_S8x512x4096_2_0_01_1_n_n_wf : DotDims.WF S8x512x2048 S2048x4096 S8x512x4096 [2] [0] [0, 1] [1] [] []

variable [Facts₀]

def dot_S8x512x2048_S2048x4096_S8x512x4096_2_0_01_1_n_n : DotDims S8x512x2048 S2048x4096 S8x512x4096 where
  lhsContracting := [2]
  rhsContracting := [0]
  lhsNonContracting := [0, 1]
  rhsNonContracting := [1]
  lhsBatch := []
  rhsBatch := []
  wf := dot_S8x512x2048_S2048x4096_S8x512x4096_2_0_01_1_n_n_wf

class Facts : Prop extends Facts₀ where

variable [Facts]
-- ==== Proof.CellRun.lean ====
/-
  The run of the LSTM-cell program: seven host lines (three reshapes of the [8,512,1024] inputs to [4096,1024],
  the four gate weights joined along their columns into one [2048,4096] matrix and narrowed, the four gate biases
  joined into one [4096] vector and recast as a row), one region over sixteen blocks of 256 rows, and two reshapes of
  the region's two results back to [8,512,1024].

  At a grid point the body reads the 256-row blocks of x, h and c, the whole weight matrix as its upper and lower
  1024 rows, and the bias row; it overwrites the 256-row block of each result whole. So each result block is one
  function of the blocks read there, the argument arrays are never written, and the run ends with every argument
  array as launched and each result array assembled from its sixteen blocks.
-/
import proofs.«150344_j30734785970219_2_alg».proof.Proof.Gen.Kernel.Launch
import proofs.«150344_j30734785970219_2_alg».proof.Proof.Gen.Kernel.Skeleton
import proofs.«150344_j30734785970219_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents on core `c` when the region is entered: the launch contents carried through the seven host
    lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- The program is its host prefix, then the region, then its host suffix; run from the launch memory it reaches the
    region with the buffers at `V`, and continues after it with the two reshapes. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The two reshapes after the region touch only unscoped buffers of the core. -/
theorem suffix_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_allocates_nothing) op hop

/-- Each of them writes only its own result (`main_v8`, `main_v9`), which is no array the region stages. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- A buffer none of the seven lines before the region writes is found by the region as launched. -/
theorem V_of_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6) :
    V m c b = m ((c : Thread nD τ).loc b) := by
  obtain ⟨h0, h1, h2, h3, h4, h5, h6⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- A buffer that is no array of the region and that neither reshape after it writes ends as the region found it. -/
theorem tail_of_unwritten (dats : (p : Fin 1) → (c : Dev nD) → Dat τ (Elt F) Unit ℕ (UR sig nD τ) ℕ (cfgs p) c) (c : Dev nD)
    (b : Ref sig .tc) (hb : b ≠ main_v8 ∧ b ≠ main_v9) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne hb.1, StableHlo.devRef_ne_of_ne hb.2⟩)),
    Pipeline.withArrays_of_ne _ c (V0 m c) _ b hw]

/-! ## The blocks the body reads -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not (the
    weights and the bias are fetched once, at the first point, and their block index never moves). Stated for any proof
    data whose array is the region-entry contents and whose body leaves the input's block in place. -/
theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_h {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_c {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_b {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body reads and what it leaves -/

/-- A whole 256-row block; the upper and the lower 1024 rows of the weight matrix; the bias row. -/
abbrev rBlock : Rect S256x1024 := Rect.unit (s := S256x1024) ![0, 0] S256x1024.size inb_S256x1024_S256x1024_0_0
abbrev rUpper : Rect S2048x4096 := Rect.unit (s := S2048x4096) ![0, 0] S1024x4096.size inb_S2048x4096_S1024x4096_0_0
abbrev rLower : Rect S2048x4096 := Rect.unit (s := S2048x4096) ![1024, 0] S1024x4096.size inb_S2048x4096_S1024x4096_1024_0
abbrev rBias : Rect S1x4096 := Rect.unit (s := S1x4096) ![0, 0] S1x4096.size inb_S1x4096_S1x4096_0_0

/-- The new cell state's block after the body: one store of the whole block, of the cell-state payload of the blocks read. -/
def cellBlock (x h cin : Vec F S256x1024 .f32) (w : Vec F S2048x4096 .bf16) (b : Vec F S1x4096 .f32) : Vec F S256x1024 .f32 :=
  View.canon [⟨rBlock, k0_pay2 (View.ld x rBlock) (View.ld h rBlock) (View.ld cin rBlock) (View.ld w rUpper) (View.ld w rLower) (View.ld b rBias)⟩]

/-- The new hidden state's block after the body: one store of the whole block, of the hidden-state payload. -/
def hiddenBlock (x h cin : Vec F S256x1024 .f32) (w : Vec F S2048x4096 .bf16) (b : Vec F S1x4096 .f32) : Vec F S256x1024 .f32 :=
  View.canon [⟨rBlock, k0_pay3 (View.ld x rBlock) (View.ld h rBlock) (View.ld cin rBlock) (View.ld w rUpper) (View.ld w rLower) (View.ld b rBias)⟩]

/-- One store through the whole-block rectangle covers the block. -/
theorem block_covered (p0 : Vec F S256x1024 .f32) (y : S256x1024.Idx) :
    ∃ pc ∈ ([⟨rBlock, p0⟩] : List (View.Piece (Elt F) S256x1024 .f32)), y ∈ pc.1.set :=
  View.cover_of_tiled [⟨rBlock, p0⟩] S256x1024.size (by rfl) y

/-! ## The body's triple -/

set_option maxHeartbeats 1000000 in
/-- The body on whole staging memrefs — the five inputs' at contents `x h cin w b`, the two outputs' at anything — runs
    to the end leaving the inputs' as they were and the outputs' at `hiddenBlock` and `cellBlock` of the inputs'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cin : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare cin
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cin
            ∗ owns (c : Thread nD τ) arg4 fullShare w ∗ owns (c : Thread nD τ) arg5 fullShare b
            ∗ owns (c : Thread nD τ) arg6 fullShare (hiddenBlock x h cin w b) ∗ owns (c : Thread nD τ) arg7 fullShare (cellBlock x h cin w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (block_covered _)
  iexists _; isplitr
  swap; · iexact H7
  ipureintro
  exact View.read_writes_eq_canon _ _ _ (block_covered _)

/-! ## The proof data of the region -/

/-- On core `c`: the arrays as the region finds them; after the body at point `t` each input's buffer still at its block
    and each result's buffer at its block of the point's inputs; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenBlock (iblk m c 0 t) (iblk m c 1 t) (iblk m c 2 t) (iblk m c 3 t) (iblk m c 4 t)
    | ⟨6, _⟩ => cellBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_hidden (c : Dev nD) (t : Fin cfg0.N) :
    (dats m 0 c).after 5 t = hiddenBlock (iblk m c 0 t) (iblk m c 1 t) (iblk m c 2 t) (iblk m c 3 t) (iblk m c 4 t) := by dsimp only [dats]
theorem after_cell (c : Dev nD) (t : Fin cfg0.N) :
    (dats m 0 c).after 6 t = cellBlock (iblk m c 0 t) (iblk m c 1 t) (iblk m c 2 t) (iblk m c 3 t) (iblk m c 4 t) := by dsimp only [dats]

theorem found_x (c : Dev nD) (t : Fin cfg0.N) (d) : (dats m 0 c).before 0 t d = iblk m c 0 t :=
  before_x m (dats m 0 c) (A_eq m c 0) (after_x m c) t d
theorem found_h (c : Dev nD) (t : Fin cfg0.N) (d) : (dats m 0 c).before 1 t d = iblk m c 1 t :=
  before_h m (dats m 0 c) (A_eq m c 1) (after_h m c) t d
theorem found_c (c : Dev nD) (t : Fin cfg0.N) (d) : (dats m 0 c).before 2 t d = iblk m c 2 t :=
  before_c m (dats m 0 c) (A_eq m c 2) (after_c m c) t d
theorem found_w (c : Dev nD) (t : Fin cfg0.N) (d) : (dats m 0 c).before 3 t d = iblk m c 3 t :=
  before_w m (dats m 0 c) (A_eq m c 3) (after_w m c) t d
theorem found_b (c : Dev nD) (t : Fin cfg0.N) (d) : (dats m 0 c).before 4 t d = iblk m c 4 t :=
  before_b m (dats m 0 c) (A_eq m c 4) (after_b m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the five inputs' buffers hold their blocks, so the triple applies; everything else passes
    through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_x, found_h, found_c, found_w, found_b]
  rw [show (dats m 0 c).Φ t.succ = (dats m 0 c).Φ t.castSucc from rfl,
    show (dats m 0 c).owesAt () t.succ = (dats m 0 c).owesAt () t.castSucc from rfl,
    after_x, after_h, after_c, after_w, after_b, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any launch memory with zero counters every weakly fair execution of the program ends, with each array the
    region stages at what its write-backs leave and every other unscoped buffer as the two reshapes after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_refs) (hfresh := suffix_fresh) (hkeep := suffix_keeps_arrays)
    (hmain := main_around m Variants.none) (hA := A_eq m) (hΦ := fun _ _ => rfl)

/-- In a final state of that run an argument array (a buffer no host line writes and no window stages) is as launched. -/
theorem kept_of_post {r : PUnit × MemSt nD τ sig (Elt F)}
    (h : Pipeline.FramePost cfgs (dats m) 0 (Pipeline.afterTail₀ cfgs (dats m) 0 (V0 m) [hostOps1]) r) (c : Dev nD) (b : Ref sig .tc)
    (hmem : b ∈ Pipeline.restRefs sig spec0)
    (h1 : b ≠ main_v0 ∧ b ≠ main_v1 ∧ b ≠ main_v2 ∧ b ≠ main_v3 ∧ b ≠ main_v4 ∧ b ≠ main_v5 ∧ b ≠ main_v6)
    (h2 : b ≠ main_v8 ∧ b ≠ main_v9) (h3 : ∀ w, Pipeline.arrRef spec0 w ≠ b) :
    r.2.mem ((c.tc : Thread nD τ).loc b) = m ((c.tc : Thread nD τ).loc b) :=
  ((h c).2 b hmem).trans ((tail_of_unwritten m (dats m) c b h2 h3).trans (V_of_unwritten m c b h1))

/-- The frame: the program runs to the end and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨kept_of_post m h c main_arg0 (Pipeline.mem_restRefs_of main_arg0 (by decide) (by decide)) (by decide) (by decide) (by decide),
     kept_of_post m h c main_arg1 (Pipeline.mem_restRefs_of main_arg1 (by decide) (by decide)) (by decide) (by decide) (by decide),
     kept_of_post m h c main_arg2 (Pipeline.mem_restRefs_of main_arg2 (by decide) (by decide)) (by decide) (by decide) (by decide),
     kept_of_post m h c main_arg3 (Pipeline.mem_restRefs_of main_arg3 (by decide) (by decide)) (by decide) (by decide) (by decide),
     kept_of_post m h c main_arg4 (Pipeline.mem_restRefs_of main_arg4 (by decide) (by decide)) (by decide) (by decide) (by decide),
     kept_of_post m h c main_arg5 (Pipeline.mem_restRefs_of main_arg5 (by decide) (by decide)) (by decide) (by decide) (by decide),
     kept_of_post m h c main_arg6 (Pipeline.mem_restRefs_of main_arg6 (by decide) (by decide)) (by decide) (by decide) (by decide),
     kept_of_post m h c main_arg7 (Pipeline.mem_restRefs_of main_arg7 (by decide) (by decide)) (by decide) (by decide) (by decide),
     kept_of_post m h c main_arg8 (Pipeline.mem_restRefs_of main_arg8 (by decide) (by decide)) (by decide) (by decide) (by decide),
     kept_of_post m h c main_arg9 (Pipeline.mem_restRefs_of main_arg9 (by decide) (by decide)) (by decide) (by decide) (by decide),
     kept_of_post m h c main_arg10 (Pipeline.mem_restRefs_of main_arg10 (by decide) (by decide)) (by decide) (by decide) (by decide)⟩)
    (run_main m ρ)

end Cert.Kernel.Cell

end
-- ==== Proof.CellRunIdeal.lean ====
/-
  The run of the LSTM-cell program: seven host lines (three reshapes of the [8,512,1024] inputs to [4096,1024],
  the four gate weights joined along their columns into one [2048,4096] matrix and narrowed, the four gate biases
  joined into one [4096] vector and recast as a row), one region over sixteen blocks of 256 rows, and two reshapes of
  the region's two results back to [8,512,1024].

  At a grid point the body reads the 256-row blocks of x, h and c, the whole weight matrix as its upper and lower
  1024 rows, and the bias row; it overwrites the 256-row block of each result whole. So each result block is one
  function of the blocks read there, the argument arrays are never written, and the run ends with every argument
  array as launched and each result array assembled from its sixteen blocks.
-/
import proofs.«150344_j30734785970219_2_alg».proof.Proof.Gen.KernelIdeal.Launch
import proofs.«150344_j30734785970219_2_alg».proof.Proof.Gen.KernelIdeal.Skeleton
import proofs.«150344_j30734785970219_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents on core `c` when the region is entered: the launch contents carried through the seven host
    lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- The program is its host prefix, then the region, then its host suffix; run from the launch memory it reaches the
    region with the buffers at `V`, and continues after it with the two reshapes. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The two reshapes after the region touch only unscoped buffers of the core. -/
theorem suffix_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_allocates_nothing) op hop

/-- Each of them writes only its own result (`main_v8`, `main_v9`), which is no array the region stages. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- A buffer none of the seven lines before the region writes is found by the region as launched. -/
theorem V_of_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6) :
    V m c b = m ((c : Thread nD τ).loc b) := by
  obtain ⟨h0, h1, h2, h3, h4, h5, h6⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- A buffer that is no array of the region and that neither reshape after it writes ends as the region found it. -/
theorem tail_of_unwritten (dats : (p : Fin 1) → (c : Dev nD) → Dat τ (Elt F) Unit ℕ (UR sig nD τ) ℕ (cfgs p) c) (c : Dev nD)
    (b : Ref sig .tc) (hb : b ≠ main_v8 ∧ b ≠ main_v9) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne hb.1, StableHlo.devRef_ne_of_ne hb.2⟩)),
    Pipeline.withArrays_of_ne _ c (V0 m c) _ b hw]

/-! ## The blocks the body reads -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not (the
    weights and the bias are fetched once, at the first point, and their block index never moves). Stated for any proof
    data whose array is the region-entry contents and whose body leaves the input's block in place. -/
theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_h {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_c {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_b {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body reads and what it leaves -/

/-- A whole 256-row block; the upper and the lower 1024 rows of the weight matrix; the bias row. -/
abbrev rBlock : Rect S256x1024 := Rect.unit (s := S256x1024) ![0, 0] S256x1024.size inb_S256x1024_S256x1024_0_0
abbrev rUpper : Rect S2048x4096 := Rect.unit (s := S2048x4096) ![0, 0] S1024x4096.size inb_S2048x4096_S1024x4096_0_0
abbrev rLower : Rect S2048x4096 := Rect.unit (s := S2048x4096) ![1024, 0] S1024x4096.size inb_S2048x4096_S1024x4096_1024_0
abbrev rBias : Rect S1x4096 := Rect.unit (s := S1x4096) ![0, 0] S1x4096.size inb_S1x4096_S1x4096_0_0

/-- The new cell state's block after the body: one store of the whole block, of the cell-state payload of the blocks read. -/
def cellBlock (x h cin : Vec F S256x1024 .f32) (w : Vec F S2048x4096 .bf16) (b : Vec F S1x4096 .f32) : Vec F S256x1024 .f32 :=
  View.canon [⟨rBlock, k0_pay2 (View.ld x rBlock) (View.ld h rBlock) (View.ld cin rBlock) (View.ld w rUpper) (View.ld w rLower) (View.ld b rBias)⟩]

/-- The new hidden state's block after the body: one store of the whole block, of the hidden-state payload. -/
def hiddenBlock (x h cin : Vec F S256x1024 .f32) (w : Vec F S2048x4096 .bf16) (b : Vec F S1x4096 .f32) : Vec F S256x1024 .f32 :=
  View.canon [⟨rBlock, k0_pay3 (View.ld x rBlock) (View.ld h rBlock) (View.ld cin rBlock) (View.ld w rUpper) (View.ld w rLower) (View.ld b rBias)⟩]

/-- One store through the whole-block rectangle covers the block. -/
theorem block_covered (p0 : Vec F S256x1024 .f32) (y : S256x1024.Idx) :
    ∃ pc ∈ ([⟨rBlock, p0⟩] : List (View.Piece (Elt F) S256x1024 .f32)), y ∈ pc.1.set :=
  View.cover_of_tiled [⟨rBlock, p0⟩] S256x1024.size (by rfl) y

/-! ## The body's triple -/

set_option maxHeartbeats 1000000 in
/-- The body on whole staging memrefs — the five inputs' at contents `x h cin w b`, the two outputs' at anything — runs
    to the end leaving the inputs' as they were and the outputs' at `hiddenBlock` and `cellBlock` of the inputs'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cin : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare cin
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cin
            ∗ owns (c : Thread nD τ) arg4 fullShare w ∗ owns (c : Thread nD τ) arg5 fullShare b
            ∗ owns (c : Thread nD τ) arg6 fullShare (hiddenBlock x h cin w b) ∗ owns (c : Thread nD τ) arg7 fullShare (cellBlock x h cin w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (block_covered _)
  iexists _; isplitr
  swap; · iexact H7
  ipureintro
  exact View.read_writes_eq_canon _ _ _ (block_covered _)

/-! ## The proof data of the region -/

/-- On core `c`: the arrays as the region finds them; after the body at point `t` each input's buffer still at its block
    and each result's buffer at its block of the point's inputs; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenBlock (iblk m c 0 t) (iblk m c 1 t) (iblk m c 2 t) (iblk m c 3 t) (iblk m c 4 t)
    | ⟨6, _⟩ => cellBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_hidden (c : Dev nD) (t : Fin cfg0.N) :
    (dats m 0 c).after 5 t = hiddenBlock (iblk m c 0 t) (iblk m c 1 t) (iblk m c 2 t) (iblk m c 3 t) (iblk m c 4 t) := by dsimp only [dats]
theorem after_cell (c : Dev nD) (t : Fin cfg0.N) :
    (dats m 0 c).after 6 t = cellBlock (iblk m c 0 t) (iblk m c 1 t) (iblk m c 2 t) (iblk m c 3 t) (iblk m c 4 t) := by dsimp only [dats]

theorem found_x (c : Dev nD) (t : Fin cfg0.N) (d) : (dats m 0 c).before 0 t d = iblk m c 0 t :=
  before_x m (dats m 0 c) (A_eq m c 0) (after_x m c) t d
theorem found_h (c : Dev nD) (t : Fin cfg0.N) (d) : (dats m 0 c).before 1 t d = iblk m c 1 t :=
  before_h m (dats m 0 c) (A_eq m c 1) (after_h m c) t d
theorem found_c (c : Dev nD) (t : Fin cfg0.N) (d) : (dats m 0 c).before 2 t d = iblk m c 2 t :=
  before_c m (dats m 0 c) (A_eq m c 2) (after_c m c) t d
theorem found_w (c : Dev nD) (t : Fin cfg0.N) (d) : (dats m 0 c).before 3 t d = iblk m c 3 t :=
  before_w m (dats m 0 c) (A_eq m c 3) (after_w m c) t d
theorem found_b (c : Dev nD) (t : Fin cfg0.N) (d) : (dats m 0 c).before 4 t d = iblk m c 4 t :=
  before_b m (dats m 0 c) (A_eq m c 4) (after_b m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the five inputs' buffers hold their blocks, so the triple applies; everything else passes
    through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_x, found_h, found_c, found_w, found_b]
  rw [show (dats m 0 c).Φ t.succ = (dats m 0 c).Φ t.castSucc from rfl,
    show (dats m 0 c).owesAt () t.succ = (dats m 0 c).owesAt () t.castSucc from rfl,
    after_x, after_h, after_c, after_w, after_b, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any launch memory with zero counters every weakly fair execution of the program ends, with each array the
    region stages at what its write-backs leave and every other unscoped buffer as the two reshapes after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_refs) (hfresh := suffix_fresh) (hkeep := suffix_keeps_arrays)
    (hmain := main_around m Variants.none) (hA := A_eq m) (hΦ := fun _ _ => rfl)

/-- In a final state of that run an argument array (a buffer no host line writes and no window stages) is as launched. -/
theorem kept_of_post {r : PUnit × MemSt nD τ sig (Elt F)}
    (h : Pipeline.FramePost cfgs (dats m) 0 (Pipeline.afterTail₀ cfgs (dats m) 0 (V0 m) [hostOps1]) r) (c : Dev nD) (b : Ref sig .tc)
    (hmem : b ∈ Pipeline.restRefs sig spec0)
    (h1 : b ≠ main_v0 ∧ b ≠ main_v1 ∧ b ≠ main_v2 ∧ b ≠ main_v3 ∧ b ≠ main_v4 ∧ b ≠ main_v5 ∧ b ≠ main_v6)
    (h2 : b ≠ main_v8 ∧ b ≠ main_v9) (h3 : ∀ w, Pipeline.arrRef spec0 w ≠ b) :
    r.2.mem ((c.tc : Thread nD τ).loc b) = m ((c.tc : Thread nD τ).loc b) :=
  ((h c).2 b hmem).trans ((tail_of_unwritten m (dats m) c b h2 h3).trans (V_of_unwritten m c b h1))

/-- The frame: the program runs to the end and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨kept_of_post m h c main_arg0 (Pipeline.mem_restRefs_of main_arg0 (by decide) (by decide)) (by decide) (by decide) (by decide),
     kept_of_post m h c main_arg1 (Pipeline.mem_restRefs_of main_arg1 (by decide) (by decide)) (by decide) (by decide) (by decide),
     kept_of_post m h c main_arg2 (Pipeline.mem_restRefs_of main_arg2 (by decide) (by decide)) (by decide) (by decide) (by decide),
     kept_of_post m h c main_arg3 (Pipeline.mem_restRefs_of main_arg3 (by decide) (by decide)) (by decide) (by decide) (by decide),
     kept_of_post m h c main_arg4 (Pipeline.mem_restRefs_of main_arg4 (by decide) (by decide)) (by decide) (by decide) (by decide),
     kept_of_post m h c main_arg5 (Pipeline.mem_restRefs_of main_arg5 (by decide) (by decide)) (by decide) (by decide) (by decide),
     kept_of_post m h c main_arg6 (Pipeline.mem_restRefs_of main_arg6 (by decide) (by decide)) (by decide) (by decide) (by decide),
     kept_of_post m h c main_arg7 (Pipeline.mem_restRefs_of main_arg7 (by decide) (by decide)) (by decide) (by decide) (by decide),
     kept_of_post m h c main_arg8 (Pipeline.mem_restRefs_of main_arg8 (by decide) (by decide)) (by decide) (by decide) (by decide),
     kept_of_post m h c main_arg9 (Pipeline.mem_restRefs_of main_arg9 (by decide) (by decide)) (by decide) (by decide) (by decide),
     kept_of_post m h c main_arg10 (Pipeline.mem_restRefs_of main_arg10 (by decide) (by decide)) (by decide) (by decide) (by decide)⟩)
    (run_main m ρ)

end Cert.KernelIdeal.Cell

end
-- ==== Proof.GateMath.lean ====
/-
  The LSTM cell, one output entry at a time, on the extended reals.

  For one row (one batch entry at one time step) with input row x, previous hidden row h (1024 entries each), the
  four gate weight matrices joined side by side into W (2048 rows, 4096 columns: the upper 1024 rows meet x, the
  lower 1024 meet h) and the four gate biases joined into one vector of 4096 entries, the pre-activation of column j is
      z j = (sum over d of x d * W d j  +  sum over d of h d * W (1024 + d) j)  +  bias j .
  Columns 0..1023 are the forget gate, 1024..2047 the input gate, 2048..3071 the candidate, 3072..4095 the output gate:
      c' q = sigmoid (z q) * c q + tanh (z (2048 + q)) * sigmoid (z (1024 + q)),
      h' q = tanh (c' q) * sigmoid (z (3072 + q)).
  A sum over 2048 consecutive indices is the sum over the first 1024 plus the sum over the last 1024, in any
  commutative monoid: the one law that joins a product with the concatenated row [x, h] to the two half products.
-/
import Idealize.ShloMosaic.PureOps.Ideal
import Idealize.ShloMosaic.Lib.ValueIdx
import Mathlib.Algebra.BigOperators.Fin

noncomputable section

namespace Cert.Lstm

open Idealize.ShloMosaic

/-- The pre-activation of column `j` for one row: the two half products and the bias. `wu d j` is the weight matrix at
    row `d` of its upper half, `wl d j` at row `d` of its lower half. -/
def preact (x h : Fin 1024 → EReal) (wu wl : Fin 1024 → Fin 4096 → EReal) (bias : Fin 4096 → EReal) (j : Fin 4096) : EReal :=
  (∑ d : Fin 1024, x d * wu d j + ∑ d : Fin 1024, h d * wl d j) + bias j

/-- Column `q` of the gate whose columns start at `k`. -/
def gateCol (k : Nat) (hk : k + 1024 ≤ 4096) (q : Fin 1024) : Fin 4096 := ⟨k + q.val, by have := q.isLt; omega⟩

/-- The new cell state at column `q` from the row's pre-activations and the old cell state there. -/
def cellAt (z : Fin 4096 → EReal) (cin : EReal) (q : Fin 1024) : EReal :=
  Ideal.logistic (z (gateCol 0 (by decide) q)) * cin
    + Ideal.tanh (z (gateCol 2048 (by decide) q)) * Ideal.logistic (z (gateCol 1024 (by decide) q))

/-- The new hidden state at column `q`. -/
def hiddenAt (z : Fin 4096 → EReal) (cin : EReal) (q : Fin 1024) : EReal :=
  Ideal.tanh (cellAt z cin q) * Ideal.logistic (z (gateCol 3072 (by decide) q))

/-- Row `d` of the upper half, and of the lower half, of a matrix of 2048 rows. -/
def upperRow (d : Fin 1024) : Fin 2048 := ⟨d.val, by have := d.isLt; omega⟩
def lowerRow (d : Fin 1024) : Fin 2048 := ⟨1024 + d.val, by have := d.isLt; omega⟩

/-- A sum over 2048 consecutive indices splits into its first and its last 1024 terms. -/
theorem sum_halves {M : Type*} [AddCommMonoid M] (f : Fin 2048 → M) :
    ∑ k : Fin 2048, f k = ∑ d : Fin 1024, f (upperRow d) + ∑ d : Fin 1024, f (lowerRow d) :=
  Fin.sum_univ_add (a := 1024) (b := 1024) f

/-! ## The whole arrays -/

/-- The pre-activations of row `r` of the flattened inputs (4096 rows of 1024 entries). -/
def flatPreact (X H : (⟨2, ![4096, 1024]⟩ : Shape).Idx → EReal) (W : (⟨2, ![2048, 4096]⟩ : Shape).Idx → EReal)
    (bias : Fin 4096 → EReal) (r : Fin 4096) : Fin 4096 → EReal :=
  preact (fun d => X (ValueIdx.ix2 r d)) (fun d => H (ValueIdx.ix2 r d)) (fun d j => W (ValueIdx.ix2 (upperRow d) j))
    (fun d j => W (ValueIdx.ix2 (lowerRow d) j)) bias

/-- The new cell state and the new hidden state of the flattened inputs, entry by entry. -/
def cellFlat (X H C : (⟨2, ![4096, 1024]⟩ : Shape).Idx → EReal) (W : (⟨2, ![2048, 4096]⟩ : Shape).Idx → EReal)
    (bias : Fin 4096 → EReal) (r : Fin 4096) (q : Fin 1024) : EReal :=
  cellAt (flatPreact X H W bias r) (C (ValueIdx.ix2 r q)) q
def hiddenFlat (X H C : (⟨2, ![4096, 1024]⟩ : Shape).Idx → EReal) (W : (⟨2, ![2048, 4096]⟩ : Shape).Idx → EReal)
    (bias : Fin 4096 → EReal) (r : Fin 4096) (q : Fin 1024) : EReal :=
  hiddenAt (flatPreact X H W bias r) (C (ValueIdx.ix2 r q)) q

/-- The pre-activations of the row at batch entry `b`, time step `t` of the inputs as given (8 x 512 rows). -/
def rowPreact (x h : (⟨3, ![8, 512, 1024]⟩ : Shape).Idx → EReal) (W : (⟨2, ![2048, 4096]⟩ : Shape).Idx → EReal)
    (bias : Fin 4096 → EReal) (b : Fin 8) (t : Fin 512) : Fin 4096 → EReal :=
  preact (fun d => x (ValueIdx.ix3 b t d)) (fun d => h (ValueIdx.ix3 b t d)) (fun d j => W (ValueIdx.ix2 (upperRow d) j))
    (fun d j => W (ValueIdx.ix2 (lowerRow d) j)) bias

/-- The cell's two results, entry by entry: what both programs compute. -/
def cellOut (x h cin : (⟨3, ![8, 512, 1024]⟩ : Shape).Idx → EReal) (W : (⟨2, ![2048, 4096]⟩ : Shape).Idx → EReal)
    (bias : Fin 4096 → EReal) (b : Fin 8) (t : Fin 512) (q : Fin 1024) : EReal :=
  cellAt (rowPreact x h W bias b t) (cin (ValueIdx.ix3 b t q)) q
def hiddenOut (x h cin : (⟨3, ![8, 512, 1024]⟩ : Shape).Idx → EReal) (W : (⟨2, ![2048, 4096]⟩ : Shape).Idx → EReal)
    (bias : Fin 4096 → EReal) (b : Fin 8) (t : Fin 512) (q : Fin 1024) : EReal :=
  hiddenAt (rowPreact x h W bias b t) (cin (ValueIdx.ix3 b t q)) q

end Cert.Lstm

end
-- ==== Proof.CellPayloads.lean ====
/-
  The body's three payloads read at one entry, on the extended reals.

  The body's 256 x 4096 pre-activation block is the sum of two matrix products into zero accumulators (the block of x
  with the upper 1024 rows of the weights, the block of h with the lower 1024), plus the bias row repeated down the
  rows; narrowing to sixteen bits is the identity on the extended reals and the shape casts are casts to the same shape.
  Its four column slices of width 1024 feed the gates. So at row p and column q of the block the cell payload and the
  hidden payload are the cell's two formulas of that row's 4096 pre-activations.
-/
import proofs.«150344_j30734785970219_2_alg».proof.Proof.Gen.KernelIdeal.Skeleton
import proofs.«150344_j30734785970219_2_alg».proof.Proof.GateMath
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen Idealize.ShloMosaic Idealize.ShloMosaic.ValueIdx Cert.Lstm

/-- The operand indices of the 256 x 1024 by 1024 x 4096 product at an output entry and a contraction index, a
    coordinate at a time: the left operand is read at (output row, contraction), the right at (contraction, output column). -/
theorem lhs_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_contr (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_contr (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- One entry of a product of a 256 x 1024 block with a 1024 x 4096 matrix into a zero accumulator: the row of the one
    against the column of the other. -/
theorem product_at (lhs : FVec Ideal S256x1024 .bf16) (rhs : FVec Ideal S1024x4096 .bf16) (p : Fin 256) (j : Fin 4096) :
    matmul dot_S256x1024_S1024x4096_S256x4096_1_0_0_1_n_n none lhs rhs (constant (F := Ideal) S256x4096 .f32 0x00000000#32) (ix2 p j)
      = ∑ d : Fin 1024, lhs (ix2 p d) * rhs (ix2 d j) := by
  show FloatOps.matmul dot_S256x1024_S1024x4096_S256x4096_1_0_0_1_n_n none lhs rhs (constant (F := Ideal) S256x4096 .f32 0x00000000#32) (ix2 p j) = _
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k :=
    funext fun a => Fin.ext (by
      match a with
      | ⟨0, _⟩ => exact lhs_row _ _
      | ⟨1, _⟩ => exact (lhs_contr _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j :=
    funext fun a => Fin.ext (by
      match a with
      | ⟨0, _⟩ => exact (rhs_contr _ _).trans hk
      | ⟨1, _⟩ => exact rhs_col _ _)
  rw [el, er]

/-- The bias row repeated down the 256 rows, read at row `p`: the row itself. -/
theorem bias_at {α : Type} (b : S1x4096.Idx → α) (hb : S1x4096.Broadcasts S256x4096) (p : Fin 256) (j : Fin 4096) :
    broadcastTo S256x4096 b hb (ix2 p j) = b (ix2 (0 : Fin 1) j) :=
  broadcastTo_apply b hb (ix2 p j) (ix2 (0 : Fin 1) j) (fun a => match a with
    | ⟨0, _⟩ => by show (0 : Nat) = if (1 : Nat) = 1 then 0 else _; rw [if_pos rfl]
    | ⟨1, _⟩ => by show j.val = if (4096 : Nat) = 1 then 0 else j.val; rw [if_neg (by decide)])

/-- The slice of width 1024 starting at column `k` of a 256 x 4096 block, read at an entry. -/
theorem slice_at {α : Type} (k : Nat) (hk : k + 1024 ≤ 4096) (v : S256x4096.Idx → α) (h : S256x4096.Slices ![0, k] S256x1024)
    (p : Fin 256) (q : Fin 1024) :
    extractStridedSlice S256x1024 ![0, k] v h (ix2 p q) = v (ix2 p (gateCol k hk q)) :=
  extractStridedSlice_apply ![0, k] v h (ix2 p q) (ix2 p (gateCol k hk q)) (fun a => match a with
    | ⟨0, _⟩ => by show p.val = 0 + p.val; omega
    | ⟨1, _⟩ => rfl)

/-- The pre-activation block at row `p`, column `j`. -/
theorem preact_at (x h : Vec Ideal S256x1024 .f32) (wu wl : Vec Ideal S1024x4096 .bf16) (b : Vec Ideal S1x4096 .f32)
    (p : Fin 256) (j : Fin 4096) :
    k0_pay1 (F := Ideal) x h wu wl b (ix2 p j)
      = preact (fun d => x (ix2 p d)) (fun d => h (ix2 p d)) (fun d j => wu (ix2 d j)) (fun d j => wl (ix2 d j))
          (fun j => b (ix2 (0 : Fin 1) j)) j := by
  unfold k0_pay1 preact
  simp only [shapeCast_self]
  rw [addf_apply, addf_apply, product_at, product_at, bias_at]
  rfl

/-- The cell payload at row `p`, column `q`: the cell formula of that row's pre-activations. -/
theorem cell_at (x h cin : Vec Ideal S256x1024 .f32) (wu wl : Vec Ideal S1024x4096 .bf16) (b : Vec Ideal S1x4096 .f32)
    (p : Fin 256) (q : Fin 1024) :
    k0_pay2 (F := Ideal) x h cin wu wl b (ix2 p q)
      = cellAt (preact (fun d => x (ix2 p d)) (fun d => h (ix2 p d)) (fun d j => wu (ix2 d j)) (fun d j => wl (ix2 d j))
          (fun j => b (ix2 (0 : Fin 1) j))) (cin (ix2 p q)) q := by
  unfold k0_pay2 cellAt
  simp only [shapeCast_self, addf_apply, mulf_apply, logistic, tanh, slice_at 0 (by decide), slice_at 1024 (by decide),
    slice_at 2048 (by decide), preact_at]
  rfl

/-- The hidden payload at row `p`, column `q`. -/
theorem hidden_at (x h cin : Vec Ideal S256x1024 .f32) (wu wl : Vec Ideal S1024x4096 .bf16) (b : Vec Ideal S1x4096 .f32)
    (p : Fin 256) (q : Fin 1024) :
    k0_pay3 (F := Ideal) x h cin wu wl b (ix2 p q)
      = hiddenAt (preact (fun d => x (ix2 p d)) (fun d => h (ix2 p d)) (fun d j => wu (ix2 d j)) (fun d j => wl (ix2 d j))
          (fun j => b (ix2 (0 : Fin 1) j))) (cin (ix2 p q)) q := by
  unfold k0_pay3 hiddenAt
  simp only [mulf_apply, logistic, tanh, slice_at 3072 (by decide), preact_at, cell_at]
  rfl

end Cert.KernelIdeal.CellValue

end
-- ==== Proof.CellBlocks.lean ====
/-
  One result block as a piece of the whole result.

  The body's store into a result block is the payload of the blocks it read. If those blocks are rows r0 .. r0 + 255 of
  the flattened inputs X, H and C, the whole weight matrix W and the bias row, then entry (p, q) of the stored block is
  entry (r0 + p, q) of the whole-array result: the row's pre-activations read x and h along row r0 + p, the upper
  1024 rows of W against x and the lower 1024 against h.
-/
import proofs.«150344_j30734785970219_2_alg».proof.Proof.CellRunIdeal
import proofs.«150344_j30734785970219_2_alg».proof.Proof.CellPayloads

noncomputable section

namespace Cert.KernelIdeal.CellValue

open Cert.KernelIdeal Cert.KernelIdeal.Gen Cert.KernelIdeal.Cell Idealize.ShloMosaic Idealize.ShloMosaic.ValueIdx Cert.Lstm

theorem origin2 : (![0, 0] : Fin 2 → Nat) = fun _ => 0 := funext fun a => by fin_cases a <;> rfl

/-- The upper 1024 rows of the staged weight matrix, read at an entry. -/
theorem upper_at (w : Vec Ideal S2048x4096 .bf16) (d : Fin 1024) (j : Fin 4096) :
    View.ld w rUpper (ix2 d j) = w (ix2 (upperRow d) j) := by
  show w (rUpper.emb (ix2 d j)) = _
  refine congrArg w (funext fun a => Fin.ext ?_)
  rw [Rect.emb_apply]
  match a with
  | ⟨0, _⟩ => show 0 + 1 * d.val = d.val; omega
  | ⟨1, _⟩ => show 0 + 1 * j.val = j.val; omega

/-- The lower 1024 rows. -/
theorem lower_at (w : Vec Ideal S2048x4096 .bf16) (d : Fin 1024) (j : Fin 4096) :
    View.ld w rLower (ix2 d j) = w (ix2 (lowerRow d) j) := by
  show w (rLower.emb (ix2 d j)) = _
  refine congrArg w (funext fun a => Fin.ext ?_)
  rw [Rect.emb_apply]
  match a with
  | ⟨0, _⟩ => show 1024 + 1 * d.val = 1024 + d.val; omega
  | ⟨1, _⟩ => show 0 + 1 * j.val = j.val; omega

/-- Row `r0 + p` of a 4096-row array, for `p` a row of a 256-row block starting at row `r0`. -/
def blockRow (r0 : Nat) (h0 : r0 + 256 ≤ 4096) (p : Fin 256) : Fin 4096 := ⟨r0 + p.val, by have := p.isLt; omega⟩

/-- The stored hidden-state block is the whole-array hidden state on the block's rows. -/
theorem hiddenBlock_at (X H C : S4096x1024.Idx → EReal) (W : S2048x4096.Idx → EReal) (B : S1x4096.Idx → EReal)
    (xb hb cb : Vec Ideal S256x1024 .f32) (wb : Vec Ideal S2048x4096 .bf16) (bb : Vec Ideal S1x4096 .f32)
    (r0 : Nat) (h0 : r0 + 256 ≤ 4096)
    (hx : ∀ p d, xb (ix2 p d) = X (ix2 (blockRow r0 h0 p) d)) (hh : ∀ p d, hb (ix2 p d) = H (ix2 (blockRow r0 h0 p) d))
    (hc : ∀ p q, cb (ix2 p q) = C (ix2 (blockRow r0 h0 p) q)) (hw : wb = W) (hbias : bb = B) (p : Fin 256) (q : Fin 1024) :
    hiddenBlock (F := Ideal) xb hb cb wb bb (ix2 p q)
      = hiddenFlat X H C W (fun j => B (ix2 (0 : Fin 1) j)) (blockRow r0 h0 p) q := by
  unfold hiddenBlock hiddenFlat flatPreact
  rw [View.canon_unit_zero origin2]
  simp only [View.ld_unit_zero (S := S256x1024) origin2, View.ld_unit_zero (S := S1x4096) origin2]
  rw [hidden_at]
  have ex : (fun d : Fin 1024 => xb (ix2 p d)) = fun d => X (ix2 (blockRow r0 h0 p) d) := funext (hx p)
  have eh : (fun d : Fin 1024 => hb (ix2 p d)) = fun d => H (ix2 (blockRow r0 h0 p) d) := funext (hh p)
  have eu : (fun (d : Fin 1024) (j : Fin 4096) => View.ld wb rUpper (ix2 d j)) = fun d j => W (ix2 (upperRow d) j) :=
    funext fun d => funext fun j => (upper_at wb d j).trans (by rw [hw])
  have el : (fun (d : Fin 1024) (j : Fin 4096) => View.ld wb rLower (ix2 d j)) = fun d j => W (ix2 (lowerRow d) j) :=
    funext fun d => funext fun j => (lower_at wb d j).trans (by rw [hw])
  have eb : (fun j : Fin 4096 => bb (ix2 (0 : Fin 1) j)) = fun j => B (ix2 (0 : Fin 1) j) := by rw [hbias]
  rw [ex, eh, eu, el, eb, hc]

/-- The stored cell-state block is the whole-array cell state on the block's rows. -/
theorem cellBlock_at (X H C : S4096x1024.Idx → EReal) (W : S2048x4096.Idx → EReal) (B : S1x4096.Idx → EReal)
    (xb hb cb : Vec Ideal S256x1024 .f32) (wb : Vec Ideal S2048x4096 .bf16) (bb : Vec Ideal S1x4096 .f32)
    (r0 : Nat) (h0 : r0 + 256 ≤ 4096)
    (hx : ∀ p d, xb (ix2 p d) = X (ix2 (blockRow r0 h0 p) d)) (hh : ∀ p d, hb (ix2 p d) = H (ix2 (blockRow r0 h0 p) d))
    (hc : ∀ p q, cb (ix2 p q) = C (ix2 (blockRow r0 h0 p) q)) (hw : wb = W) (hbias : bb = B) (p : Fin 256) (q : Fin 1024) :
    cellBlock (F := Ideal) xb hb cb wb bb (ix2 p q)
      = cellFlat X H C W (fun j => B (ix2 (0 : Fin 1) j)) (blockRow r0 h0 p) q := by
  unfold cellBlock cellFlat flatPreact
  rw [View.canon_unit_zero origin2]
  simp only [View.ld_unit_zero (S := S256x1024) origin2, View.ld_unit_zero (S := S1x4096) origin2]
  rw [cell_at]
  have ex : (fun d : Fin 1024 => xb (ix2 p d)) = fun d => X (ix2 (blockRow r0 h0 p) d) := funext (hx p)
  have eh : (fun d : Fin 1024 => hb (ix2 p d)) = fun d => H (ix2 (blockRow r0 h0 p) d) := funext (hh p)
  have eu : (fun (d : Fin 1024) (j : Fin 4096) => View.ld wb rUpper (ix2 d j)) = fun d j => W (ix2 (upperRow d) j) :=
    funext fun d => funext fun j => (upper_at wb d j).trans (by rw [hw])
  have el : (fun (d : Fin 1024) (j : Fin 4096) => View.ld wb rLower (ix2 d j)) = fun d j => W (ix2 (lowerRow d) j) :=
    funext fun d => funext fun j => (lower_at wb d j).trans (by rw [hw])
  have eb : (fun j : Fin 4096 => bb (ix2 (0 : Fin 1) j)) = fun j => B (ix2 (0 : Fin 1) j) := by rw [hbias]
  rw [ex, eh, eu, el, eb, hc]

end Cert.KernelIdeal.CellValue

end
-- ==== Proof.CellArrays.lean ====
/-
  From blocks to whole arrays, and through the host lines.

  Grid point t stages rows 256 t .. 256 t + 255 of the three flattened inputs and of the two results, and the whole
  weight matrix and bias row at every point. So what point t writes back into a result array is rows 256 t .. of the
  whole-array result of the arrays the region found; the sixteen blocks cover the 4096 rows, hence each result array
  ends as that whole-array function. The region finds the inputs flattened from [8, 512, 1024] to [4096, 1024], the
  weight matrix as the four gate matrices side by side (narrowing is the identity on the extended reals) and the bias
  as the four gate biases end to end, recast as a row; the two results are recast to [8, 512, 1024] after it.
-/
import proofs.«150344_j30734785970219_2_alg».proof.Proof.CellBlocks
import Idealize.ShloMosaic.Lib.StableHlo.Run

set_option maxRecDepth 16384

noncomputable section

namespace Cert.KernelIdeal.CellValue

open Cert.KernelIdeal Cert.KernelIdeal.Gen Cert.KernelIdeal.Cell Idealize.ShloMosaic Idealize.ShloMosaic.ValueIdx Cert.Lstm
open Idealize.ShloMosaic.TcCoe Idealize.SL.Sem Idealize.ShloMosaic.StableHlo

variable (m : (ℓ : Loc nD τ sig) → Buf (Elt Ideal) ℓ) (ρ : Dev nD → PrngReg)

/-! ## Which block each window stages at a point -/

/-- The printed index maps, decided over the sixteen points: the row-blocked windows stage block `t`, the weights and
    the bias their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_rows (t : Fin cfg0.N) : t.val * 256 + 256 ≤ 4096 := by
  have h1 : t.val < cfg0.N := t.isLt
  have h2 : cfg0.N = 16 := N_0
  omega

/-- The blocks of x, h and c at point `t` are rows 256 t .. of the arrays the region found. -/
theorem x_block (c : Dev nD) (t : Fin cfg0.N) (p : Fin 256) (d : Fin 1024) :
    iblk m c 0 t (ix2 p d) = V m c main_v0 (ix2 (blockRow (t.val * 256) (point_rows t) p) d) := by
  obtain ⟨e0, e1, -⟩ := block_index t
  have h0 : ((cfg0.win 0).blk t).view.emb (ix2 p d) = ix2 (blockRow (t.val * 256) (point_rows t) p) d := by
    funext a; apply Fin.ext
    match a with
    | ⟨0, _⟩ => show win0_0.index t (0 : Fin 2) * 256 + 1 * p.val = t.val * 256 + p.val; omega
    | ⟨1, _⟩ => show win0_0.index t (1 : Fin 2) * 1024 + 1 * d.val = d.val; omega
  show V m c main_v0 (((cfg0.win 0).blk t).view.emb (ix2 p d)) = _
  rw [h0]

theorem h_block (c : Dev nD) (t : Fin cfg0.N) (p : Fin 256) (d : Fin 1024) :
    iblk m c 1 t (ix2 p d) = V m c main_v1 (ix2 (blockRow (t.val * 256) (point_rows t) p) d) := by
  obtain ⟨-, -, e0, e1, -⟩ := block_index t
  have h0 : ((cfg0.win 1).blk t).view.emb (ix2 p d) = ix2 (blockRow (t.val * 256) (point_rows t) p) d := by
    funext a; apply Fin.ext
    match a with
    | ⟨0, _⟩ => show win0_1.index t (0 : Fin 2) * 256 + 1 * p.val = t.val * 256 + p.val; omega
    | ⟨1, _⟩ => show win0_1.index t (1 : Fin 2) * 1024 + 1 * d.val = d.val; omega
  show V m c main_v1 (((cfg0.win 1).blk t).view.emb (ix2 p d)) = _
  rw [h0]

theorem c_block (c : Dev nD) (t : Fin cfg0.N) (p : Fin 256) (d : Fin 1024) :
    iblk m c 2 t (ix2 p d) = V m c main_v2 (ix2 (blockRow (t.val * 256) (point_rows t) p) d) := by
  obtain ⟨-, -, -, -, e0, e1, -⟩ := block_index t
  have h0 : ((cfg0.win 2).blk t).view.emb (ix2 p d) = ix2 (blockRow (t.val * 256) (point_rows t) p) d := by
    funext a; apply Fin.ext
    match a with
    | ⟨0, _⟩ => show win0_2.index t (0 : Fin 2) * 256 + 1 * p.val = t.val * 256 + p.val; omega
    | ⟨1, _⟩ => show win0_2.index t (1 : Fin 2) * 1024 + 1 * d.val = d.val; omega
  show V m c main_v2 (((cfg0.win 2).blk t).view.emb (ix2 p d)) = _
  rw [h0]

/-- The weights' block and the bias's block are their whole arrays, at every point. -/
theorem w_block (c : Dev nD) (t : Fin cfg0.N) : iblk m c 3 t = V m c main_v4 := by
  obtain ⟨-, -, -, -, -, -, e0, e1, -⟩ := block_index t
  funext y
  have h0 : ((cfg0.win 3).blk t).view.emb y = y := by
    funext a; apply Fin.ext
    match a with
    | ⟨0, _⟩ => show win0_3.index t (0 : Fin 2) * 2048 + 1 * (y 0).val = (y 0).val; omega
    | ⟨1, _⟩ => show win0_3.index t (1 : Fin 2) * 4096 + 1 * (y 1).val = (y 1).val; omega
  show V m c main_v4 (((cfg0.win 3).blk t).view.emb y) = _
  rw [h0]

theorem b_block (c : Dev nD) (t : Fin cfg0.N) : iblk m c 4 t = V m c main_v6 := by
  obtain ⟨-, -, -, -, -, -, -, -, e0, e1, -⟩ := block_index t
  funext y
  have h0 : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 4096 + 1 * (y 1).val = (y 1).val; omega
  show V m c main_v6 (((cfg0.win 4).blk t).view.emb y) = _
  rw [h0]

/-! ## The whole result arrays of the region -/

/-- The new hidden state, and the new cell state, of the arrays the region found, entry by entry. -/
def hiddenArr (c : Dev nD) : S4096x1024.Idx → EReal := fun i =>
  hiddenFlat (V m c main_v0) (V m c main_v1) (V m c main_v2) (V m c main_v4) (fun j => V m c main_v6 (ix2 (0 : Fin 1) j))
    ⟨(i 0).val, (i 0).isLt⟩ ⟨(i 1).val, (i 1).isLt⟩
def cellArr (c : Dev nD) : S4096x1024.Idx → EReal := fun i =>
  cellFlat (V m c main_v0) (V m c main_v1) (V m c main_v2) (V m c main_v4) (fun j => V m c main_v6 (ix2 (0 : Fin 1) j))
    ⟨(i 0).val, (i 0).isLt⟩ ⟨(i 1).val, (i 1).isLt⟩

/-- What point `t` writes back into the hidden-state array is block `t` of `hiddenArr`. -/
theorem hidden_flushed (c : Dev nD) (t : Fin cfg0.N) :
    (dats m 0 c).flushed 5 t = ((cfg0.win 5).blk t).view.read (Elt Ideal) (hiddenArr m c) := by
  show (cfg0.win 5).cut (grid0.coords t) ((dats m 0 c).after 5 t) = _
  rw [after_hidden]
  funext y
  obtain ⟨p, q, rfl⟩ : ∃ (p : Fin 256) (q : Fin 1024), y = ix2 p q := ⟨y 0, y 1, eq_ix2 y⟩
  obtain ⟨-, -, -, -, -, -, -, -, -, -, e0, e1, -⟩ := block_index t
  have h5 : ((cfg0.win 5).blk t).view.emb (ix2 p q) = ix2 (blockRow (t.val * 256) (point_rows t) p) q := by
    funext a; apply Fin.ext
    match a with
    | ⟨0, _⟩ => show win0_5.index t (0 : Fin 2) * 256 + 1 * p.val = t.val * 256 + p.val; omega
    | ⟨1, _⟩ => show win0_5.index t (1 : Fin 2) * 1024 + 1 * q.val = q.val; omega
  refine (hiddenBlock_at (V m c main_v0) (V m c main_v1) (V m c main_v2) (V m c main_v4) (V m c main_v6)
    (iblk m c 0 t) (iblk m c 1 t) (iblk m c 2 t) (iblk m c 3 t) (iblk m c 4 t) (t.val * 256) (point_rows t)
    (x_block m c t) (h_block m c t) (c_block m c t) (w_block m c t) (b_block m c t) p q).trans ?_
  show _ = hiddenArr m c (((cfg0.win 5).blk t).view.emb (ix2 p q))
  rw [h5]
  rfl

/-- What point `t` writes back into the cell-state array is block `t` of `cellArr`. -/
theorem cell_flushed (c : Dev nD) (t : Fin cfg0.N) :
    (dats m 0 c).flushed 6 t = ((cfg0.win 6).blk t).view.read (Elt Ideal) (cellArr m c) := by
  show (cfg0.win 6).cut (grid0.coords t) ((dats m 0 c).after 6 t) = _
  rw [after_cell]
  funext y
  obtain ⟨p, q, rfl⟩ : ∃ (p : Fin 256) (q : Fin 1024), y = ix2 p q := ⟨y 0, y 1, eq_ix2 y⟩
  obtain ⟨-, -, -, -, -, -, -, -, -, -, -, -, e0, e1⟩ := block_index t
  have h6 : ((cfg0.win 6).blk t).view.emb (ix2 p q) = ix2 (blockRow (t.val * 256) (point_rows t) p) q := by
    funext a; apply Fin.ext
    match a with
    | ⟨0, _⟩ => show win0_6.index t (0 : Fin 2) * 256 + 1 * p.val = t.val * 256 + p.val; omega
    | ⟨1, _⟩ => show win0_6.index t (1 : Fin 2) * 1024 + 1 * q.val = q.val; omega
  refine (cellBlock_at (V m c main_v0) (V m c main_v1) (V m c main_v2) (V m c main_v4) (V m c main_v6)
    (iblk m c 0 t) (iblk m c 1 t) (iblk m c 2 t) (iblk m c 3 t) (iblk m c 4 t) (t.val * 256) (point_rows t)
    (x_block m c t) (h_block m c t) (c_block m c t) (w_block m c t) (b_block m c t) p q).trans ?_
  show _ = cellArr m c (((cfg0.win 6).blk t).view.emb (ix2 p q))
  rw [h6]
  rfl

/-- An index of a result array lies in point `t`'s block iff each coordinate lies in the block's range. -/
theorem mem_hidden_block (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v7_0).slice (win0_5.rect t)).set ↔ _
  rw [View.set_slice_whole, Rect.mem_set_unit]
  exact Iff.rfl
theorem mem_cell_block (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7_1).slice (win0_6.rect t)).set ↔ _
  rw [View.set_slice_whole, Rect.mem_set_unit]
  exact Iff.rfl

/-- The point that covers row `r` is `r / 256`. -/
def pointOf (i : S4096x1024.Idx) : Fin cfg0.N :=
  ⟨(i 0).val / 256, by have h : (i 0).val < 4096 := (i 0).isLt; rw [show cfg0.N = 16 from N_0]; omega⟩

/-- Every entry of a result array is in the block some point writes back. -/
theorem hidden_cover (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  refine ⟨pointOf i, flush0_5 _, ?_⟩
  rw [mem_hidden_block]
  obtain ⟨-, -, -, -, -, -, -, -, -, -, e0, e1, -⟩ := block_index (pointOf i)
  have ev : (pointOf i).val = (i 0).val / 256 := rfl
  intro a
  match a with
  | ⟨0, _⟩ => show win0_5.index (pointOf i) (0 : Fin 2) * 256 ≤ (i 0).val ∧ (i 0).val < win0_5.index (pointOf i) (0 : Fin 2) * 256 + 256; omega
  | ⟨1, _⟩ => show win0_5.index (pointOf i) (1 : Fin 2) * 1024 ≤ (i 1).val ∧ (i 1).val < win0_5.index (pointOf i) (1 : Fin 2) * 1024 + 1024; omega
theorem cell_cover (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  refine ⟨pointOf i, flush0_6 _, ?_⟩
  rw [mem_cell_block]
  obtain ⟨-, -, -, -, -, -, -, -, -, -, -, -, e0, e1⟩ := block_index (pointOf i)
  have ev : (pointOf i).val = (i 0).val / 256 := rfl
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

/-- The two result arrays after the region. -/
theorem hidden_final (c : Dev nD) : (dats m 0 c).arrAt 5 cfg0.N = hiddenArr m c :=
  (dats m 0 c).arrAt_eq_of_cover 5 (hiddenArr m c) (fun t _ => hidden_flushed m c t) hidden_cover
theorem cell_final (c : Dev nD) : (dats m 0 c).arrAt 6 cfg0.N = cellArr m c :=
  (dats m 0 c).arrAt_eq_of_cover 6 (cellArr m c) (fun t _ => cell_flushed m c t) cell_cover

/-! ## The host lines, read -/

theorem x_found (c : Dev nD) : (V m c main_v0 : S4096x1024.Idx → EReal)
    = shapeCast S4096x1024 (m ((c.tc : Thread nD τ).loc main_arg0)) shapeCasts_S8x512x1024_S4096x1024 := by
  show StableHlo.after hostOps0 (fun b => m (c, b)) (Proc.devRef .tc main_v0) = _
  after_results
  rfl
theorem h_found (c : Dev nD) : (V m c main_v1 : S4096x1024.Idx → EReal)
    = shapeCast S4096x1024 (m ((c.tc : Thread nD τ).loc main_arg1)) shapeCasts_S8x512x1024_S4096x1024 := by
  show StableHlo.after hostOps0 (fun b => m (c, b)) (Proc.devRef .tc main_v1) = _
  after_results
  rfl
theorem c_found (c : Dev nD) : (V m c main_v2 : S4096x1024.Idx → EReal)
    = shapeCast S4096x1024 (m ((c.tc : Thread nD τ).loc main_arg2)) shapeCasts_S8x512x1024_S4096x1024 := by
  show StableHlo.after hostOps0 (fun b => m (c, b)) (Proc.devRef .tc main_v2) = _
  after_results
  rfl

/-- The four gate matrices side by side, and the four gate biases end to end, of the launch memory. -/
def gateWeights (c : Dev nD) : S2048x4096.Idx → EReal :=
  concatenate S2048x4096 1 [⟨S2048x1024, m ((c.tc : Thread nD τ).loc main_arg3)⟩, ⟨S2048x1024, m ((c.tc : Thread nD τ).loc main_arg5)⟩,
    ⟨S2048x1024, m ((c.tc : Thread nD τ).loc main_arg7)⟩, ⟨S2048x1024, m ((c.tc : Thread nD τ).loc main_arg9)⟩]
    concatenates_S2048x1024_S2048x1024_S2048x1024_S2048x1024_S2048x4096_d1
def gateBiases (c : Dev nD) : S4096.Idx → EReal :=
  concatenate S4096 0 [⟨S1024, m ((c.tc : Thread nD τ).loc main_arg4)⟩, ⟨S1024, m ((c.tc : Thread nD τ).loc main_arg6)⟩,
    ⟨S1024, m ((c.tc : Thread nD τ).loc main_arg8)⟩, ⟨S1024, m ((c.tc : Thread nD τ).loc main_arg10)⟩]
    concatenates_S1024_S1024_S1024_S1024_S4096_d0

theorem w_found (c : Dev nD) : (V m c main_v4 : S2048x4096.Idx → EReal) = gateWeights m c := by
  show StableHlo.after hostOps0 (fun b => m (c, b)) (Proc.devRef .tc main_v4) = _
  after_results_simp
  rfl
theorem b_found (c : Dev nD) : (V m c main_v6 : S1x4096.Idx → EReal)
    = shapeCast S1x4096 (gateBiases m c) shapeCasts_S4096_S1x4096 := by
  show StableHlo.after hostOps0 (fun b => m (c, b)) (Proc.devRef .tc main_v6) = _
  after_results_simp
  rfl

/-- The two results of the program: the region's result arrays recast to [8, 512, 1024]. -/
theorem hidden_result (c : Dev nD) : (Pipeline.afterTail₀ cfgs (dats m) 0 (V0 m) [hostOps1] c main_v8 : S8x512x1024.Idx → EReal)
    = shapeCast S8x512x1024 (hiddenArr m c) shapeCasts_S4096x1024_S8x512x1024 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7_0) = hiddenArr m c :=
    (Pipeline.withArrays_arr spec0 launch0.win.arr_inj c _ _ 5).trans (hidden_final m c)
  exact congrArg (fun A : S4096x1024.Idx → EReal => shapeCast S8x512x1024 A shapeCasts_S4096x1024_S8x512x1024) e
theorem cell_result (c : Dev nD) : (Pipeline.afterTail₀ cfgs (dats m) 0 (V0 m) [hostOps1] c main_v9 : S8x512x1024.Idx → EReal)
    = shapeCast S8x512x1024 (cellArr m c) shapeCasts_S4096x1024_S8x512x1024 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v7_1) = cellArr m c :=
    (Pipeline.withArrays_arr spec0 launch0.win.arr_inj c _ _ 6).trans (cell_final m c)
  exact congrArg (fun A : S4096x1024.Idx → EReal => shapeCast S8x512x1024 A shapeCasts_S4096x1024_S8x512x1024) e

end Cert.KernelIdeal.CellValue

end
-- ==== Proof.CellResult.lean ====
/-
  The program's two results, entry by entry.

  Row (b, t) of an [8, 512, 1024] input is row 512 b + t of its flattening, and the results are flattened back the same
  way; the bias row is the joined bias vector. So the program's hidden and cell results at (b, t, q) are the cell's
  formulas of row (b, t) of x and h, the four gate matrices side by side, the four gate biases end to end, and c at
  (b, t, q).
-/
import proofs.«150344_j30734785970219_2_alg».proof.Proof.CellArrays

noncomputable section

namespace Cert.KernelIdeal.CellValue

open Cert.KernelIdeal Cert.KernelIdeal.Gen Cert.KernelIdeal.Cell Idealize.ShloMosaic Idealize.ShloMosaic.ValueIdx Cert.Lstm
open Idealize.ShloMosaic.TcCoe Idealize.SL.Sem

variable (m : (ℓ : Loc nD τ sig) → Buf (Elt Ideal) ℓ) (ρ : Dev nD → PrngReg)

/-- The flattened row of batch entry `b`, time step `t`. -/
def flatRow (b : Fin 8) (t : Fin 512) : Fin 4096 := ⟨b.val * 512 + t.val, by have := b.isLt; have := t.isLt; omega⟩

/-- An [8, 512, 1024] array flattened to [4096, 1024], read at a row and a column. -/
theorem flat_at {α : Type} (x : S8x512x1024.Idx → α) (h : S8x512x1024.ShapeCasts S4096x1024) (b : Fin 8) (t : Fin 512) (d : Fin 1024) :
    shapeCast S4096x1024 x h (ix2 (flatRow b t) d) = x (ix3 b t d) :=
  shapeCast_apply x h (ix2 (flatRow b t) d) (ix3 b t d) (by rw [Shape.rowMajor_val_three, Shape.rowMajor_val_two]; rfl)

/-- A [4096, 1024] array recast to [8, 512, 1024], read at an entry. -/
theorem unflat_at {α : Type} (A : S4096x1024.Idx → α) (h : S4096x1024.ShapeCasts S8x512x1024) (b : Fin 8) (t : Fin 512) (q : Fin 1024) :
    shapeCast S8x512x1024 A h (ix3 b t q) = A (ix2 (flatRow b t) q) :=
  shapeCast_apply A h (ix3 b t q) (ix2 (flatRow b t) q) (by rw [Shape.rowMajor_val_three, Shape.rowMajor_val_two]; rfl)

/-- The bias row the region finds is the joined bias vector. -/
theorem bias_at_col (c : Dev nD) : (fun j : Fin 4096 => V m c main_v6 (ix2 (0 : Fin 1) j)) = fun j => gateBiases m c (ix1 j) :=
  funext fun j => by
    rw [b_found]
    exact shapeCast_apply _ _ (ix2 (0 : Fin 1) j) (ix1 j) (by rw [Shape.rowMajor_val_one, Shape.rowMajor_val_two]; show j.val = 0 * 4096 + j.val; omega)

theorem x_row (c : Dev nD) (b : Fin 8) (t : Fin 512) :
    (fun d : Fin 1024 => V m c main_v0 (ix2 (flatRow b t) d)) = fun d => m ((c.tc : Thread nD τ).loc main_arg0) (ix3 b t d) :=
  funext fun d => by rw [x_found]; exact flat_at _ _ b t d
theorem h_row (c : Dev nD) (b : Fin 8) (t : Fin 512) :
    (fun d : Fin 1024 => V m c main_v1 (ix2 (flatRow b t) d)) = fun d => m ((c.tc : Thread nD τ).loc main_arg1) (ix3 b t d) :=
  funext fun d => by rw [h_found]; exact flat_at _ _ b t d
theorem c_entry (c : Dev nD) (b : Fin 8) (t : Fin 512) (q : Fin 1024) :
    V m c main_v2 (ix2 (flatRow b t) q) = m ((c.tc : Thread nD τ).loc main_arg2) (ix3 b t q) := by
  rw [c_found]; exact flat_at _ _ b t q

/-- The cell's two results of the launch memory, entry by entry: what the program returns. -/
def hiddenValue (c : Dev nD) : S8x512x1024.Idx → EReal := fun i =>
  hiddenOut (m ((c.tc : Thread nD τ).loc main_arg0)) (m ((c.tc : Thread nD τ).loc main_arg1)) (m ((c.tc : Thread nD τ).loc main_arg2))
    (gateWeights m c) (fun j => gateBiases m c (ix1 j)) ⟨(i 0).val, (i 0).isLt⟩ ⟨(i 1).val, (i 1).isLt⟩ ⟨(i 2).val, (i 2).isLt⟩
def cellValue (c : Dev nD) : S8x512x1024.Idx → EReal := fun i =>
  cellOut (m ((c.tc : Thread nD τ).loc main_arg0)) (m ((c.tc : Thread nD τ).loc main_arg1)) (m ((c.tc : Thread nD τ).loc main_arg2))
    (gateWeights m c) (fun j => gateBiases m c (ix1 j)) ⟨(i 0).val, (i 0).isLt⟩ ⟨(i 1).val, (i 1).isLt⟩ ⟨(i 2).val, (i 2).isLt⟩

theorem hidden_value (c : Dev nD) :
    shapeCast S8x512x1024 (hiddenArr m c) shapeCasts_S4096x1024_S8x512x1024 = hiddenValue m c := by
  funext i
  obtain ⟨b, t, q, rfl⟩ : ∃ (b : Fin 8) (t : Fin 512) (q : Fin 1024), i = ix3 b t q := ⟨i 0, i 1, i 2, eq_ix3 i⟩
  rw [unflat_at]
  show hiddenFlat (V m c main_v0) (V m c main_v1) (V m c main_v2) (V m c main_v4) (fun j => V m c main_v6 (ix2 (0 : Fin 1) j)) (flatRow b t) q
    = hiddenOut _ _ _ (gateWeights m c) (fun j => gateBiases m c (ix1 j)) b t q
  unfold hiddenFlat hiddenOut flatPreact rowPreact
  rw [x_row, h_row, c_entry, bias_at_col, w_found]

theorem cell_value (c : Dev nD) :
    shapeCast S8x512x1024 (cellArr m c) shapeCasts_S4096x1024_S8x512x1024 = cellValue m c := by
  funext i
  obtain ⟨b, t, q, rfl⟩ : ∃ (b : Fin 8) (t : Fin 512) (q : Fin 1024), i = ix3 b t q := ⟨i 0, i 1, i 2, eq_ix3 i⟩
  rw [unflat_at]
  show cellFlat (V m c main_v0) (V m c main_v1) (V m c main_v2) (V m c main_v4) (fun j => V m c main_v6 (ix2 (0 : Fin 1) j)) (flatRow b t) q
    = cellOut _ _ _ (gateWeights m c) (fun j => gateBiases m c (ix1 j)) b t q
  unfold cellFlat cellOut flatPreact rowPreact
  rw [x_row, h_row, c_entry, bias_at_col, w_found]

/-- The run, with its two results named: every weakly fair execution ends with the hidden and cell results at the cell's
    formulas of the launch memory, and the eleven argument arrays as launched. -/
theorem run : θ_run defs (onTc (τ := τ) (main (F := Ideal))) ⟨m, fun _ => 0, ρ⟩ (fun r => ∀ c : Dev nD,
      r.2.mem ((c.tc : Thread nD τ).loc main_v8) = hiddenValue m c
      ∧ r.2.mem ((c.tc : Thread nD τ).loc main_v9) = cellValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(((h c).2 main_v8 (Pipeline.mem_restRefs_of main_v8 (by decide) (by decide))).trans (hidden_result m c)).trans (hidden_value m c),
     (((h c).2 main_v9 (Pipeline.mem_restRefs_of main_v9 (by decide) (by decide))).trans (cell_result m c)).trans (cell_value m c),
     kept_of_post m h c main_arg0 (Pipeline.mem_restRefs_of main_arg0 (by decide) (by decide)) (by decide) (by decide) (by decide),
     kept_of_post m h c main_arg1 (Pipeline.mem_restRefs_of main_arg1 (by decide) (by decide)) (by decide) (by decide) (by decide),
     kept_of_post m h c main_arg2 (Pipeline.mem_restRefs_of main_arg2 (by decide) (by decide)) (by decide) (by decide) (by decide),
     kept_of_post m h c main_arg3 (Pipeline.mem_restRefs_of main_arg3 (by decide) (by decide)) (by decide) (by decide) (by decide),
     kept_of_post m h c main_arg4 (Pipeline.mem_restRefs_of main_arg4 (by decide) (by decide)) (by decide) (by decide) (by decide),
     kept_of_post m h c main_arg5 (Pipeline.mem_restRefs_of main_arg5 (by decide) (by decide)) (by decide) (by decide) (by decide),
     kept_of_post m h c main_arg6 (Pipeline.mem_restRefs_of main_arg6 (by decide) (by decide)) (by decide) (by decide) (by decide),
     kept_of_post m h c main_arg7 (Pipeline.mem_restRefs_of main_arg7 (by decide) (by decide)) (by decide) (by decide) (by decide),
     kept_of_post m h c main_arg8 (Pipeline.mem_restRefs_of main_arg8 (by decide) (by decide)) (by decide) (by decide) (by decide),
     kept_of_post m h c main_arg9 (Pipeline.mem_restRefs_of main_arg9 (by decide) (by decide)) (by decide) (by decide) (by decide),
     kept_of_post m h c main_arg10 (Pipeline.mem_restRefs_of main_arg10 (by decide) (by decide)) (by decide) (by decide) (by decide)⟩)
    (run_main m ρ)

end Cert.KernelIdeal.CellValue

end
-- ==== Proof.RefCell.lean ====
/-
  The reference, one entry at a time, is the cell's two formulas.

  The reference joins x and h along their last axis into rows of 2048 entries and multiplies by the 2048 x 4096 matrix of
  the four gate weights side by side: the sum over 2048 indices splits into the first 1024 (where the joined row is x)
  and the last 1024 (where it is h), which is the kernel's two half products. It adds the bias, slices the four gates, and
  spells the sigmoid as 1 / (1 + exp (-z)) with the literal 1.0: on the extended reals that is the sigmoid itself.
-/
import proofs.«150344_j30734785970219_2_alg».proof.Proof.Gen.ReferenceIdeal.Read
import proofs.«150344_j30734785970219_2_alg».proof.Proof.GateMath

noncomputable section

namespace Cert.ReferenceIdeal.RefValue

open Cert.ReferenceIdeal Cert.ReferenceIdeal.Gen Cert.ReferenceIdeal.Read
open Idealize.ShloMosaic Idealize.ShloMosaic.ValueIdx Cert.Lstm

variable (x0 x1 x2 : (⟨S8x512x1024, .f32⟩ : BufTy).Contents (Elt Ideal))
  (x3 x5 x7 x9 : (⟨S2048x1024, .f32⟩ : BufTy).Contents (Elt Ideal)) (x4 x6 x8 x10 : (⟨S1024, .f32⟩ : BufTy).Contents (Elt Ideal))

/-- The float literal 1.0 is the number one. -/
theorem one_word : Ideal.ofBits .f32 0x3F800000#32 = 1 := by
  simp [Ideal.ofBits, Ideal.ieee, -EReal.coe_mul]; norm_num

/-- The reference's spelling of the sigmoid, 1 / (1 + exp (-z)) over the literal 1.0, is the sigmoid. -/
theorem spelled_sigmoid (z : EReal) :
    Ideal.div (Ideal.ofBits .f32 0x3F800000#32) (Ideal.ofBits .f32 0x3F800000#32 + Ideal.exp (-z)) = Ideal.logistic z := by
  rw [one_word]; rfl

/-- The joined row [x, h] is x on its first 1024 entries and h on its last 1024. -/
theorem joined_left (b : Fin 8) (t : Fin 512) (d : Fin 1024) :
    val_main_v0 (F := Ideal) x0 x1 (ix3 b t (upperRow d)) = x0 (ix3 b t d) :=
  concatenate_pair_apply_left (2 : Fin 3) x0 x1 concatenates_S8x512x1024_S8x512x1024_S8x512x2048_d2 (ix3 b t (upperRow d)) rfl (ix3 b t d)
    (fun a => match a with
      | ⟨0, _⟩ => rfl
      | ⟨1, _⟩ => rfl
      | ⟨2, _⟩ => rfl)
theorem joined_right (b : Fin 8) (t : Fin 512) (d : Fin 1024) :
    val_main_v0 (F := Ideal) x0 x1 (ix3 b t (lowerRow d)) = x1 (ix3 b t d) :=
  concatenate_pair_apply_right (2 : Fin 3) x0 x1 concatenates_S8x512x1024_S8x512x1024_S8x512x2048_d2 (ix3 b t (lowerRow d)) rfl rfl (ix3 b t d)
    (fun a ha => match a, ha with
      | ⟨0, _⟩, _ => rfl
      | ⟨1, _⟩, _ => rfl
      | ⟨2, _⟩, ha => absurd rfl ha)
    (by show d.val + 1024 = 1024 + d.val; omega)

/-- The reference's pre-activation at batch entry `b`, time step `t`, column `j`. -/
theorem preact_ref (b : Fin 8) (t : Fin 512) (j : Fin 4096) :
    val_main_v6 (F := Ideal) x0 x1 x3 x4 x5 x6 x7 x8 x9 x10 (ix3 b t j)
      = rowPreact x0 x1 (val_main_v1 (F := Ideal) x3 x5 x7 x9) (fun j => val_main_v2 (F := Ideal) x4 x6 x8 x10 (ix1 j)) b t j := by
  have el : ∀ k : Fin 2048, lidx_main_v3 (ix3 b t j) k = ix3 b t k := fun k => funext fun a => Fin.ext (by
    match a with
    | ⟨0, _⟩ => rfl
    | ⟨1, _⟩ => rfl
    | ⟨2, _⟩ => rfl)
  have er : ∀ k : Fin 2048, ridx_main_v3 (ix3 b t j) k = ix2 k j := fun k => funext fun a => Fin.ext (by
    match a with
    | ⟨0, _⟩ => rfl
    | ⟨1, _⟩ => rfl)
  have eb : idx_main_v4 (idx_main_v5 (ix3 b t j)) = ix1 j := funext fun a => Fin.ext (by
    match a with
    | ⟨0, _⟩ => rfl)
  rw [val_main_v6_apply, val_main_v3_apply, val_main_v5_apply, val_main_v4_apply, eb, sum_halves]
  simp only [el, er, joined_left, joined_right]
  rfl

/-- The four gate slices read the pre-activation at the gate's columns. -/
theorem forget_ref (b : Fin 8) (t : Fin 512) (q : Fin 1024) :
    val_main_v7 (F := Ideal) x0 x1 x3 x4 x5 x6 x7 x8 x9 x10 (ix3 b t q) = val_main_v6 (F := Ideal) x0 x1 x3 x4 x5 x6 x7 x8 x9 x10 (ix3 b t (gateCol 0 (by decide) q)) := by
  rw [val_main_v7_apply]
  refine congrArg _ (funext fun a => Fin.ext ?_)
  match a with
  | ⟨0, _⟩ => rfl
  | ⟨1, _⟩ => rfl
  | ⟨2, _⟩ => show q.val = 0 + q.val; omega
theorem input_ref (b : Fin 8) (t : Fin 512) (q : Fin 1024) :
    val_main_v8 (F := Ideal) x0 x1 x3 x4 x5 x6 x7 x8 x9 x10 (ix3 b t q) = val_main_v6 (F := Ideal) x0 x1 x3 x4 x5 x6 x7 x8 x9 x10 (ix3 b t (gateCol 1024 (by decide) q)) := by
  rw [val_main_v8_apply]
  refine congrArg _ (funext fun a => Fin.ext ?_)
  match a with
  | ⟨0, _⟩ => rfl
  | ⟨1, _⟩ => rfl
  | ⟨2, _⟩ => rfl
theorem candidate_ref (b : Fin 8) (t : Fin 512) (q : Fin 1024) :
    val_main_v9 (F := Ideal) x0 x1 x3 x4 x5 x6 x7 x8 x9 x10 (ix3 b t q) = val_main_v6 (F := Ideal) x0 x1 x3 x4 x5 x6 x7 x8 x9 x10 (ix3 b t (gateCol 2048 (by decide) q)) := by
  rw [val_main_v9_apply]
  refine congrArg _ (funext fun a => Fin.ext ?_)
  match a with
  | ⟨0, _⟩ => rfl
  | ⟨1, _⟩ => rfl
  | ⟨2, _⟩ => rfl
theorem output_ref (b : Fin 8) (t : Fin 512) (q : Fin 1024) :
    val_main_v10 (F := Ideal) x0 x1 x3 x4 x5 x6 x7 x8 x9 x10 (ix3 b t q) = val_main_v6 (F := Ideal) x0 x1 x3 x4 x5 x6 x7 x8 x9 x10 (ix3 b t (gateCol 3072 (by decide) q)) := by
  rw [val_main_v10_apply]
  refine congrArg _ (funext fun a => Fin.ext ?_)
  match a with
  | ⟨0, _⟩ => rfl
  | ⟨1, _⟩ => rfl
  | ⟨2, _⟩ => rfl

/-- The reference's new cell state, entry by entry. -/
theorem cell_ref (b : Fin 8) (t : Fin 512) (q : Fin 1024) :
    val_main_v32 (F := Ideal) x0 x1 x2 x3 x4 x5 x6 x7 x8 x9 x10 (ix3 b t q)
      = cellOut x0 x1 x2 (val_main_v1 (F := Ideal) x3 x5 x7 x9) (fun j => val_main_v2 (F := Ideal) x4 x6 x8 x10 (ix1 j)) b t q := by
  unfold cellOut cellAt
  simp only [← preact_ref]
  rw [val_main_v32_apply, val_main_v30_apply, val_main_v31_apply, val_main_v16_apply, val_main_v15_apply, val_main_cst_0_apply,
    val_main_v14_apply, val_main_v13_apply, val_main_cst_apply, val_main_v12_apply, val_main_v11_apply, forget_ref,
    val_main_v23_apply, candidate_ref, val_main_v22_apply, val_main_v21_apply, val_main_cst_2_apply, val_main_v20_apply,
    val_main_v19_apply, val_main_cst_1_apply, val_main_v18_apply, val_main_v17_apply, input_ref]
  show Ideal.div (Ideal.ofBits .f32 0x3F800000#32) (Ideal.ofBits .f32 0x3F800000#32 + Ideal.exp (-_)) * _
      + Ideal.tanh _ * Ideal.div (Ideal.ofBits .f32 0x3F800000#32) (Ideal.ofBits .f32 0x3F800000#32 + Ideal.exp (-_)) = _
  rw [spelled_sigmoid, spelled_sigmoid]

/-- The reference's new hidden state, entry by entry. -/
theorem hidden_ref (b : Fin 8) (t : Fin 512) (q : Fin 1024) :
    val_main_v34 (F := Ideal) x0 x1 x2 x3 x4 x5 x6 x7 x8 x9 x10 (ix3 b t q)
      = hiddenOut x0 x1 x2 (val_main_v1 (F := Ideal) x3 x5 x7 x9) (fun j => val_main_v2 (F := Ideal) x4 x6 x8 x10 (ix1 j)) b t q := by
  unfold hiddenOut hiddenAt
  rw [val_main_v34_apply, val_main_v33_apply, cell_ref, val_main_v29_apply, val_main_v28_apply, val_main_cst_4_apply,
    val_main_v27_apply, val_main_v26_apply, val_main_cst_3_apply, val_main_v25_apply, val_main_v24_apply, output_ref, preact_ref]
  show Ideal.tanh _ * Ideal.div (Ideal.ofBits .f32 0x3F800000#32) (Ideal.ofBits .f32 0x3F800000#32 + Ideal.exp (-_)) = _
  rw [spelled_sigmoid]
  rfl

end Cert.ReferenceIdeal.RefValue

end
-- ==== Proof.lean ====
/-
  An LSTM cell over 8 x 512 rows of 1024 entries: the kernel against its reference, equal on the extended reals.

  Kernel: x, h and c are flattened to 4096 rows; the four gate weight matrices are joined side by side into one
  2048 x 4096 matrix (narrowed to sixteen bits, the identity here) and the four gate biases end to end; a region over
  sixteen blocks of 256 rows computes, per block, the block of x times the upper 1024 rows of the matrix plus the block
  of h times the lower 1024 rows, plus the bias, slices the four gates, and stores
      c' = sigmoid (z_f) * c + tanh (z_g) * sigmoid (z_i),      h' = tanh (c') * sigmoid (z_o);
  the two results are recast to 8 x 512 x 1024.
  Reference: [x, h] joined into rows of 2048 entries times the same joined matrix, plus the same joined bias, the same
  four slices and the same two formulas, with the sigmoid spelled 1 / (1 + exp (-z)).

  The two agree entry by entry: a sum over 2048 indices is the sum over its first 1024 plus the sum over its last 1024
  (addition on the extended reals is commutative and associative; no finiteness is used), the joined row is x on the
  first half and h on the second, and 1 / (1 + exp (-z)) is the sigmoid. Each program's argument arrays end as
  launched: no host line and no write-back of the region touches them. The kernel's idealization rewrote nothing.
-/
import proofs.«150344_j30734785970219_2_alg».proof.Defs
import proofs.«150344_j30734785970219_2_alg».proof.Proof.Gen.Kernel
import proofs.«150344_j30734785970219_2_alg».proof.Proof.Gen.KernelIdeal
import proofs.«150344_j30734785970219_2_alg».proof.Proof.Gen.ReferenceIdeal
import proofs.«150344_j30734785970219_2_alg».proof.Proof.Gen.ReferenceIdeal.Run
import proofs.«150344_j30734785970219_2_alg».proof.Proof.Gen.ReferenceIdeal.Read
import proofs.«150344_j30734785970219_2_alg».proof.Proof.Gen.Pre_finite_inputs
import proofs.«150344_j30734785970219_2_alg».proof.Proof.CellRun
import proofs.«150344_j30734785970219_2_alg».proof.Proof.CellResult
import proofs.«150344_j30734785970219_2_alg».proof.Proof.RefCell
import Idealize.ShloMosaic.Adequacy
import Idealize.ShloMosaic.Init

noncomputable section

namespace Cert.Proof

open Idealize.ShloMosaic Idealize.ShloMosaic.TcCoe Idealize.SL.Sem Idealize.ShloMosaic.ValueIdx

/-- Each program runs to the end and leaves its eleven argument arrays as launched. -/
theorem frame_kernel : Cert.frame_Kernel := fun m ρ _ => Cert.Kernel.Cell.frame (F := Bits) m ρ
theorem frame_kernelIdeal : Cert.frame_KernelIdeal := fun m ρ _ => Cert.KernelIdeal.Cell.frame (F := Ideal) m ρ
theorem frame_reference : Cert.frame_ReferenceIdeal := fun m ρ _ =>
  (θ_run Cert.ReferenceIdeal.defs _ _).mono (fun _ h c => (h c).2.2) (Cert.ReferenceIdeal.Value.run (F := Ideal) m ρ)

/-- On the extended reals, from memories that agree on the arguments, both programs end with the same hidden state and
    the same cell state: the cell's formulas of the arguments, entry by entry. -/
theorem algebraic : Cert.algebraic_KernelIdeal_ReferenceIdeal := by
  intro m ρ m' ρ' _ hagree
  refine ⟨fun c => Cert.KernelIdeal.CellValue.hiddenValue m c, fun c => Cert.KernelIdeal.CellValue.cellValue m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v34_eq, a0, a1, a2, a3, a4, a5, a6, a7, a8, a9, a10]
    funext i
    obtain ⟨b, t, q, rfl⟩ : ∃ (b : Fin 8) (t : Fin 512) (q : Fin 1024), i = ix3 b t q := ⟨i 0, i 1, i 2, eq_ix3 i⟩
    exact (Cert.ReferenceIdeal.RefValue.hidden_ref _ _ _ _ _ _ _ _ _ _ _ b t q).trans rfl
  · obtain ⟨a0, a1, a2, a3, a4, a5, a6, a7, a8, a9, a10⟩ := hagree c
    refine (Cert.ReferenceIdeal.Read.val_main_v32_eq _ _ _ _ _ _ _ _ _ _ _).trans ?_
    rw [a0, a1, a2, a3, a4, a5, a6, a7, a8, a9, a10]
    funext i
    obtain ⟨b, t, q, rfl⟩ : ∃ (b : Fin 8) (t : Fin 512) (q : Fin 1024), i = ix3 b t q := ⟨i 0, i 1, i 2, eq_ix3 i⟩
    exact (Cert.ReferenceIdeal.RefValue.cell_ref _ _ _ _ _ _ _ _ _ _ _ b t q).trans rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
